-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x1024 : Shape := ⟨3, ![1024, 16, 1024]⟩
abbrev S_ : Shape := ⟨0, ![]⟩

class Facts : Prop where
  bcast_S_S1024x16x1024 : S_.BroadcastsInDim S1024x16x1024 (![] : Fin 0 → Fin S1024x16x1024.rank)
  reducesTo_S1024x16x1024_S_d0_1_2 : S1024x16x1024.ReducesTo [0, 1, 2] S_
  h_S_ : 0 < S_.numel
  reducesTo_S_S_d : S_.ReducesTo [] S_

variable [Facts]

def fn {F : FTy → Type} [FloatOps F] (main_arg0 : FVec F S1024x16x1024 .f32) (main_arg1 : FVec F S_ .f32) : IVec S_ 1 :=
  let main_v0 : FVec F S1024x16x1024 .f32 := Host.absf main_arg0
  let main_cst : FVec F S_ .f32 := constant S_ .f32 0x7F800000#32
  let main_v1 : FVec F S1024x16x1024 .f32 := broadcastInDim S1024x16x1024 ![] bcast_S_S1024x16x1024 main_cst
  let main_v2 : IVec S1024x16x1024 1 := cmpf .olt main_v0 main_v1
  let main_c : IVec S_ 1 := constantI S_ 1 1#1
  let main_v3 : IVec S_ 1 := (fun x v => Host.reduce IntOp.andi x v reducesTo_S1024x16x1024_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S1024x16x1024 : Shape := ⟨3, ![1024, 16, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1024x16384 : Shape := ⟨2, ![1024, 16384]⟩
abbrev S1024x2048 : Shape := ⟨2, ![1024, 2048]⟩
abbrev S256x2048 : Shape := ⟨2, ![256, 2048]⟩
abbrev S256x1024 : Shape := ⟨2, ![256, 1024]⟩

abbrev nBuf : Space → Nat
  | .hbm => 32
  | .vmem => 5
  | .smem => 0
  | _ => 0

abbrev bufTy : (tb : Table) → Fin (tcTables nBuf tb) → BufTy
  | .hbm, ⟨0, _⟩ => ⟨S1024x16x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S_, .i32⟩
  | .hbm, ⟨20, _⟩ => ⟨S1024x1024, .i32⟩
  | .hbm, ⟨21, _⟩ => ⟨S1024x1024, .i32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S1024x16384, .f32⟩
  | .hbm, ⟨30, _⟩ => ⟨S1024x16384, .f32⟩
  | .hbm, ⟨31, _⟩ => ⟨S1024x16x1024, .f32⟩
  | .local _ .vmem, ⟨0, _⟩ => ⟨S1024x1024, .bf16⟩
  | .local _ .vmem, ⟨1, _⟩ => ⟨S1024x2048, .f32⟩
  | .local _ .vmem, ⟨2, _⟩ => ⟨S1024x2048, .f32⟩
  | .local _ .vmem, ⟨3, _⟩ => ⟨S256x2048, .f32⟩
  | .local _ .vmem, ⟨4, _⟩ => ⟨S256x2048, .f32⟩
  | _, _ => ⟨S1024x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bitsLt_bf16_f32 : FTy.bits .bf16 < FTy.bits .f32
  shapeCasts_S1024x16x1024_S1024x16384 : S1024x16x1024.ShapeCasts S1024x16384
  h_S256x1024 : 0 < S256x1024.numel
  shapeCasts_S256x1024_S256x1024 : S256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S1024x16384_S1024x16x1024 : S1024x16384.ShapeCasts S1024x16x1024
  dot_S256x1024_S1024x2048_S256x2048_1_0_0_1_n_n_wf : DotDims.WF S256x1024 S1024x2048 S256x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x1024.size a ≤ S1024x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x16384.size a
  hwx0_1 : ∀ i : grid0.Coords, EltTy.bits .f32 = 32 ∨ (Rect.block (s := S1024x16384) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S1024x16384.size a
  hwx0_2 : ∀ i : grid0.Coords, EltTy.bits .f32 = 32 ∨ (Rect.block (s := S1024x16384) S256x2048.size (cc0_transform_2 i) (hinb0_2 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v18) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16x1024 : Shape := ⟨3, ![1024, 16, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1024x16384 : Shape := ⟨2, ![1024, 16384]⟩

abbrev nBuf : Space → Nat
  | .hbm => 31
  | .vmem => 0
  | .smem => 0
  | _ => 0

abbrev bufTy : (tb : Table) → Fin (tcTables nBuf tb) → BufTy
  | .hbm, ⟨0, _⟩ => ⟨S1024x16x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S_, .i32⟩
  | .hbm, ⟨20, _⟩ => ⟨S1024x1024, .i32⟩
  | .hbm, ⟨21, _⟩ => ⟨S1024x1024, .i32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x16384, .f32⟩
  | .hbm, ⟨29, _⟩ => ⟨S1024x16384, .f32⟩
  | .hbm, ⟨30, _⟩ => ⟨S1024x16x1024, .f32⟩
  | _, _ => ⟨S1024x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  shapeCasts_S1024x16x1024_S1024x16384 : S1024x16x1024.ShapeCasts S1024x16384
  shapeCasts_S1024x16384_S1024x16x1024 : S1024x16384.ShapeCasts S1024x16x1024
  dot_S1024x1024_S1024x16384_S1024x16384_1_0_0_1_n_n_wf : DotDims.WF S1024x1024 S1024x16384 S1024x16384 [1] [0] [0] [1] [] []

variable [Facts₀]

def dot_S1024x1024_S1024x16384_S1024x16384_1_0_0_1_n_n : DotDims S1024x1024 S1024x16384 S1024x16384 where
  lhsContracting := [1]
  rhsContracting := [0]
  lhsNonContracting := [0]
  rhsNonContracting := [1]
  lhsBatch := []
  rhsBatch := []
  wf := dot_S1024x1024_S1024x16384_S1024x16384_1_0_0_1_n_n_wf

class Facts : Prop extends Facts₀ where

variable [Facts]
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.BodyBlock.lean ====
/-
  What the kernel body leaves in its 256 × 2048 output block at a grid point, read entry by entry at the extended reals.
  The body loads 256 consecutive rows of its 1024 × 1024 left block, starting at the row offset the point's second
  coordinate gives, and the whole 1024 × 2048 right block; it narrows the right block's float format (the identity on
  extended reals), multiplies the two on the matrix unit into a zero accumulator and stores the result over the whole
  output block.  So entry `(p, q)` of what it leaves is `∑ k, L[off + p, k] · R[k, q]`, `L` and `R` the two input blocks.
-/
import proofs.«121106_j71889162600690_2_alg».proof.Proof.Gen.KernelIdeal.Frame
import proofs.«121106_j71889162600690_2_alg».proof.Proof.LibMatmulNN
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.BodyBlock

open Cert.KernelIdeal Cert.KernelIdeal.Gen

theorem hz : (![0, 0] : Fin 2 → Nat) = fun _ => 0 := funext fun a => by fin_cases a <;> rfl

/-- The body's one store covers the output block, so the block ends at the store's value: the matrix product of the rows
    loaded from the left block and the whole right block (for any float values). -/
theorem out_eq {F : FTy → Type} [FloatOps F] (c : Dev nD) (i : grid0.Coords)
    (a2 : Memref sig .tc .vmem S1024x1024 .bf16) (h2 : a2.IsWhole)
    (a3 : Memref sig .tc .vmem S1024x2048 .f32) (h3 : a3.IsWhole) (a4 : Memref sig .tc .vmem S256x2048 .f32) (h4 : a4.IsWhole)
    (x0 : Vec F S1024x1024 .bf16) (x1 : Vec F S1024x2048 .f32) :
    out0_A_2 c i a2 h2 a3 h3 a4 h4 x0 x1
      = k0_pay1 (View.ld x0 (Rect.unit (s := S1024x1024) (k0_off1 i) S256x1024.size (k0_off1_inb i))) x1 := by
  unfold out0_A_2
  rw [View.read_writes_eq_canon _ _ _ (cover0_A_2 c i a2 h2 a3 h3 a4 h4 x0 x1)]
  unfold kernelRun0_A
  dsimp only
  rw [View.canon_unit_zero hz]
  simp only [View.readAt_eq_ld, h2.read_unread, h3.read_unread, View.ld_unit_zero (S := S1024x2048) hz]

/-- The matrix unit's dimension record of the body is the plain rows-by-columns one. -/
theorem dims_eq : dot_S256x1024_S1024x2048_S256x2048_1_0_0_1_n_n = DotDims.plain 256 1024 2048 := rfl

/-- The stored value at entry `(p, q)`: the two same-shape casts and the narrowing are the identity at the extended
    reals, and a product into the zero accumulator is the plain sum over the contracted index. -/
theorem pay_apply (v3 : FVec Ideal S256x1024 .bf16) (v5 : FVec Ideal S1024x2048 .f32) (p : Fin 256) (q : Fin 2048) :
    k0_pay1 (F := Ideal) v3 v5 (ix2 p q) = ∑ k : Fin 1024, v3 (ix2 p k) * v5 (ix2 k q) := by
  unfold k0_pay1
  have e1 : shapeCast S256x1024 v3 shapeCasts_S256x1024_S256x1024 = v3 := shapeCast_self _ _
  have e2 : shapeCast S1024x2048 v5 shapeCasts_S1024x2048_S1024x2048 = v5 := shapeCast_self _ _
  rw [e1, e2]
  exact LibMatmulNN.matmul_zero_apply 256 1024 2048 none v3 (truncf .bf16 v5 bitsLt_bf16_f32) p q

/-- Entry `(p, q)` of what the body leaves: the sum over `k` of the left block at row `offset + p`, column `k`, times the
    right block at `(k, q)`. -/
theorem out_apply (c : Dev nD) (i : grid0.Coords)
    (a2 : Memref sig .tc .vmem S1024x1024 .bf16) (h2 : a2.IsWhole)
    (a3 : Memref sig .tc .vmem S1024x2048 .f32) (h3 : a3.IsWhole) (a4 : Memref sig .tc .vmem S256x2048 .f32) (h4 : a4.IsWhole)
    (x0 : FVec Ideal S1024x1024 .bf16) (x1 : FVec Ideal S1024x2048 .f32) (p : Fin 256) (q : Fin 2048) :
    out0_A_2 (F := Ideal) c i a2 h2 a3 h3 a4 h4 x0 x1 (ix2 p q)
      = ∑ k : Fin 1024, x0 ((Rect.unit (s := S1024x1024) (k0_off1 i) S256x1024.size (k0_off1_inb i)).idx (ix2 p k)) * x1 (ix2 k q) := by
  rw [out_eq]
  exact pay_apply _ x1 p q

end Cert.KernelIdeal.BodyBlock

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«121106_j71889162600690_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.MatProd.lean ====
/-
  The product of a 1024 × 1024 array `A` with a 1024 × 16384 array `X` over the extended reals, entry by entry:
  `(A · X)[r, c] = ∑ k, A[r, k] · X[k, c]`, the sum over the 1024 values of the contracted index.
  The host's `dot_general` of `A` and `X` (left axis 1 against right axis 0) is this array: at each entry it is the
  same sum of the same products, so no finiteness of the entries is asked.
-/
import Idealize.ShloMosaic.PureOps.Ideal.Laws
import Idealize.ShloMosaic.Lib.ValueIdx
import proofs.«121106_j71889162600690_2_alg».proof.Proof.LibMatmulNN
import proofs.«121106_j71889162600690_2_alg».proof.Proof.LibDotGeneralNN

noncomputable section

open scoped BigOperators

namespace Cert.MatProd

open Idealize.ShloMosaic Idealize.ShloMosaic.ValueIdx

/-- Entry `(r, c)` of the product: `∑ k, A[r, k] · X[k, c]`. -/
def prodAt (A : (⟨2, ![1024, 1024]⟩ : Shape).Idx → EReal) (X : (⟨2, ![1024, 16384]⟩ : Shape).Idx → EReal)
    (r : Fin 1024) (c : Fin 16384) : EReal :=
  ∑ k : Fin 1024, A (ix2 r k) * X (ix2 k c)

/-- The product as an array: its entry at an index is `prodAt` at the index's two coordinates. -/
def prod (A : (⟨2, ![1024, 1024]⟩ : Shape).Idx → EReal) (X : (⟨2, ![1024, 16384]⟩ : Shape).Idx → EReal) :
    (⟨2, ![1024, 16384]⟩ : Shape).Idx → EReal :=
  fun j => prodAt A X (j 0) (j 1)

theorem prod_ix2 (A : (⟨2, ![1024, 1024]⟩ : Shape).Idx → EReal) (X : (⟨2, ![1024, 16384]⟩ : Shape).Idx → EReal)
    (r : Fin 1024) (c : Fin 16384) : prod A X (ix2 r c) = prodAt A X r c := rfl

/-- The host's `dot_general` of a 1024 × 1024 array and a 1024 × 16384 array is their product, entry by entry. -/
theorem dotGeneral_eq_prod (prec : Option ContractPrecision)
    (A : FVec Ideal ⟨2, ![1024, 1024]⟩ .f32) (X : FVec Ideal ⟨2, ![1024, 16384]⟩ .f32) :
    Host.dotGeneral (DotDims.plain 1024 1024 16384) prec A X = prod A X := by
  funext j
  obtain ⟨r, c, rfl⟩ : ∃ (r : Fin 1024) (c : Fin 16384), j = ix2 r c := ⟨j 0, j 1, eq_ix2 j⟩
  exact LibDotGeneralNN.dotGeneral_apply 1024 1024 16384 prec .single A X r c

end Cert.MatProd

end
-- ==== Proof.ResultArray.lean ====
/-
  The kernel's result array after the region is the product of its two input arrays.
  The grid has 8 × 4 points.  Point `(j, i)` works on the whole left array (1024 × 1024), on columns
  `2048 j … 2048 j + 2047` of the right array (1024 × 16384), and writes rows `256 i … 256 i + 255`, columns
  `2048 j … 2048 j + 2047` of the result; inside the body the left array's rows are taken from offset `256 i`.
  Entry `(p, q)` of the block a point writes is therefore `∑ k, A[256 i + p, k] · X[k, 2048 j + q]`, which is the
  product's entry at the place of the result the block's entry goes to.  The 32 blocks tile the result: row `r`, column
  `c` lies in the block of the point with `i = r / 256`, `j = c / 2048`.  So every entry of the result array ends at
  the product's entry.
-/
import proofs.«121106_j71889162600690_2_alg».proof.Proof.Gen.KernelIdeal.Frame
import proofs.«121106_j71889162600690_2_alg».proof.Proof.BodyBlock
import proofs.«121106_j71889162600690_2_alg».proof.Proof.MatProd
import Idealize.ShloMosaic.Lib.Pipeline.Value
import Idealize.ShloMosaic.Lib.ValueIdx
import Idealize.ShloMosaic.PureOps.Ideal

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ResultArray

open Cert.KernelIdeal Cert.KernelIdeal.Gen

variable (m : (ℓ : Loc nD τ sig) → Buf (Elt Ideal) ℓ) (ρ : Dev nD → PrngReg)

/-- The block indices over the grid: the left window's block never moves, the right window's block moves along the columns
    with the result's, the body's row offset into the left array is the result block's row index times 256, and the
    result's block indices stay below 4 and 8. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = win0_2.index t (1 : Fin 2)
    ∧ 256 * ((grid0.coords t) 1).val = win0_2.index t (0 : Fin 2) * 256
    ∧ win0_2.index t (0 : Fin 2) ≤ 3 ∧ win0_2.index t (1 : Fin 2) ≤ 7 :=
  (by decide +kernel : ∀ t : Fin grid0.N, _)

/-- Every one of the 4 × 8 blocks of the result is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- At one point, over any block contents: if the left block is the array `A`, the right block is columns `c0 …` of the
    array `X`, and the body's row offset is `r0`, then entry `(p, q)` of what the body leaves is the product's entry
    `(r0 + p, c0 + q)`. -/
theorem block_apply (A : (⟨2, ![1024, 1024]⟩ : Shape).Idx → EReal) (X : (⟨2, ![1024, 16384]⟩ : Shape).Idx → EReal)
    (c : Dev nD) (i : grid0.Coords)
    (a2 : Memref sig .tc .vmem S1024x1024 .bf16) (h2 : a2.IsWhole)
    (a3 : Memref sig .tc .vmem S1024x2048 .f32) (h3 : a3.IsWhole) (a4 : Memref sig .tc .vmem S256x2048 .f32) (h4 : a4.IsWhole)
    (x0 : FVec Ideal S1024x1024 .bf16) (x1 : FVec Ideal S1024x2048 .f32)
    (r0 c0 : Nat) (p : Fin 256) (q : Fin 2048) (hr : r0 + 256 ≤ 1024) (hc : c0 + 2048 ≤ 16384)
    (hoff : 256 * (i 1).val = r0)
    (hx0 : ∀ (a : Fin 1024) (k : Fin 1024), x0 (ix2 a k) = A (ix2 a k))
    (hx1 : ∀ (k : Fin 1024) (q' : Fin 2048), x1 (ix2 k q') = X (ix2 k ⟨c0 + q'.val, by omega⟩)) :
    out0_A_2 (F := Ideal) c i a2 h2 a3 h3 a4 h4 x0 x1 (ix2 p q)
      = Cert.MatProd.prodAt A X ⟨r0 + p.val, by omega⟩ ⟨c0 + q.val, by omega⟩ := by
  rw [Cert.KernelIdeal.BodyBlock.out_apply]
  unfold Cert.MatProd.prodAt
  refine Finset.sum_congr rfl fun k _ => ?_
  have e : (Rect.unit (s := S1024x1024) (k0_off1 i) S256x1024.size (k0_off1_inb i)).idx (ix2 p k)
      = ix2 (⟨r0 + p.val, by omega⟩ : Fin 1024) k := by
    funext a; apply Fin.ext
    match a with
    | ⟨0, _⟩ =>
      show k0_off1 i 0 + 1 * p.val = r0 + p.val
      rw [k0_off1_eq i]
      show 256 * (i 1).val + 1 * p.val = r0 + p.val
      omega
    | ⟨1, _⟩ =>
      show k0_off1 i 1 + 1 * k.val = k.val
      rw [k0_off1_eq i]
      show 0 + 1 * k.val = k.val
      omega
  rw [e, hx0, hx1]

/-- The product of the two input arrays as the region finds them. -/
abbrev product (c : Dev nD) : (⟨2, ![1024, 16384]⟩ : Shape).Idx → EReal := Cert.MatProd.prod (V m c main_v18) (V m c main_v19)

/-- What point `t` writes back is block `t` of the product of the two input arrays. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold outsAt0
  obtain ⟨e00, e01, e10, e11, eoff, b0, b1⟩ := idx_facts t
  funext y
  obtain ⟨p, q, rfl⟩ : ∃ (p : Fin 256) (q : Fin 2048), y = ix2 p q := ⟨y 0, y 1, eq_ix2 y⟩
  have hp : p.val < 256 := p.isLt
  have hq : q.val < 2048 := q.isLt
  refine (block_apply (V m c main_v18) (V m c main_v19) c (grid0.coords t) (ms0_0 t) (hs0_0 t) (ms0_1 t) (hs0_1 t) (ms0_2 t) (hs0_2 t)
    (iblk m c 0 t) (iblk m c 1 t) (win0_2.index t 0 * 256) (win0_2.index t 1 * 2048) p q (by omega) (by omega) eoff ?_ ?_).trans ?_
  · intro a k
    show V m c main_v18 (((cfg0.win 0).blk t).view.emb (ix2 a k)) = V m c main_v18 (ix2 a k)
    refine congrArg (V m c main_v18) ?_
    funext d; apply Fin.ext
    match d with
    | ⟨0, _⟩ => show win0_0.index t (0 : Fin 2) * 1024 + 1 * a.val = a.val; omega
    | ⟨1, _⟩ => show win0_0.index t (1 : Fin 2) * 1024 + 1 * k.val = k.val; omega
  · intro k q'
    show V m c main_v19 (((cfg0.win 1).blk t).view.emb (ix2 k q')) = V m c main_v19 (ix2 k ⟨win0_2.index t 1 * 2048 + q'.val, _⟩)
    refine congrArg (V m c main_v19) ?_
    funext d; apply Fin.ext
    match d with
    | ⟨0, _⟩ => show win0_1.index t (0 : Fin 2) * 1024 + 1 * k.val = k.val; omega
    | ⟨1, _⟩ => show win0_1.index t (1 : Fin 2) * 2048 + 1 * q'.val = win0_2.index t 1 * 2048 + q'.val; omega
  · have hr : (⟨win0_2.index t 0 * 256 + p.val, by omega⟩ : Fin 1024) = (((cfg0.win 2).blk t).view.emb (ix2 p q)) 0 :=
      Fin.ext (by show win0_2.index t 0 * 256 + p.val = win0_2.index t (0 : Fin 2) * 256 + 1 * p.val; omega)
    have hc : (⟨win0_2.index t 1 * 2048 + q.val, by omega⟩ : Fin 16384) = (((cfg0.win 2).blk t).view.emb (ix2 p q)) 1 :=
      Fin.ext (by show win0_2.index t 1 * 2048 + q.val = win0_2.index t (1 : Fin 2) * 2048 + 1 * q.val; omega)
    exact congrArg₂ (Cert.MatProd.prodAt (V m c main_v18) (V m c main_v19)) hr hc

/-- An index of the result lies in point `t`'s block iff each coordinate lies in the block's range on its axis. -/
theorem mem_blk (t : Fin cfg0.N) (i : S1024x16384.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v20).slice (win0_2.rect t)).set ↔ _
  rw [View.set_slice_whole, Rect.mem_set_unit]
  exact Iff.rfl

/-- The blocks cover the result: row `r`, column `c` lies in the block with row index `r / 256` and column index `c / 2048`. -/
theorem cover (i : S1024x16384.Idx) : ∃ t : Fin cfg0.N, (cfg0.win 2).flush t = true ∧ i ∈ ((cfg0.win 2).blk t).view.set := by
  have hi0 : (i 0).val < 1024 := (i 0).isLt
  have hi1 : (i 1).val < 16384 := (i 1).isLt
  obtain ⟨t, ht⟩ := idx_onto ⟨(i 0).val / 256, by omega⟩ ⟨(i 1).val / 2048, by omega⟩
  have q0 : win0_2.index t (0 : Fin 2) = (i 0).val / 256 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- The result array after the region is the product. -/
theorem final (c : Dev nD) : (dats m 0 c).arrAt 2 cfg0.N = product m c :=
  (dats m 0 c).arrAt_eq_of_cover 2 (product m c) (fun t _ => flushed_eq m c t) cover

end Cert.KernelIdeal.ResultArray

end
-- ==== Proof.Decay.lean ====
/-
  The decay matrix both programs build on the host from the scalar parameter `b`, as ONE function of `b`.
  With `β = 1 / (1 + exp (−b))` (the logistic function of `b`), entry `(r, k)` of the 1024 × 1024 matrix is
  `β ^ (r − k)` where `k ≤ r` and `0` above the diagonal: the difference of the row index and the column index is
  taken on 32-bit integers, a mask marks where it is non-negative, the exponent is the difference where the mask holds
  and `0` elsewhere (so no negative power is ever taken), and the mask selects the power or zero.
  Both programs apply these same operations with the same literals, so the matrix is carried as this one function and
  never opened.
-/
import proofs.«121106_j71889162600690_2_alg».proof.ReferenceIdeal
import proofs.«121106_j71889162600690_2_alg».proof.Proof.Gen.ReferenceIdeal

noncomputable section

namespace Cert.ReferenceIdeal.Decay

open Cert.ReferenceIdeal Cert.ReferenceIdeal.Gen Idealize.ShloMosaic

variable {F : FTy → Type} [FloatOps F]

/-- The lower-triangular matrix of powers of the logistic function of `b`. -/
def decay (b : (⟨S_, .f32⟩ : BufTy).Contents (Elt F)) : (⟨S1024x1024, .f32⟩ : BufTy).Contents (Elt F) :=
  (select (cmpi .sge (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 0#32))) (Host.powf (broadcastInDim S1024x1024 ![] bcast_S_S1024x1024 (Host.divf (constant S_ .f32 0x3F800000#32) (addf (constant S_ .f32 0x3F800000#32) (Host.exp (Host.negf b))))) (sitofp .f32 (select (cmpi .sge (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 0#32))) (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (id (constantI S_ 32 0#32)))))) (broadcastInDim S1024x1024 ![] bcast_S_S1024x1024 (constant S_ .f32 0x00000000#32)))

end Cert.ReferenceIdeal.Decay

end
-- ==== Proof.EntryArrays.lean ====
/-
  The two arrays the kernel's region multiplies, as the region finds them, in terms of the program's arguments.
  The left one is the decay matrix of the scalar argument: the host operations before the region are the ones that build
  that matrix, followed by a narrowing of its float format, which is the identity on extended reals.  The right one is
  the array argument laid out as 1024 rows of 16384.
-/
import proofs.«121106_j71889162600690_2_alg».proof.Proof.Gen.KernelIdeal.Frame
import proofs.«121106_j71889162600690_2_alg».proof.Proof.Decay
import Idealize.ShloMosaic.Lib.StableHlo.Run
import Idealize.ShloMosaic.PureOps.Ideal
import Idealize.ShloMosaic.Lib.Tactic

set_option maxRecDepth 16384

noncomputable section

open Idealize.ShloMosaic Idealize.ShloMosaic.TcCoe Idealize.SL.Sem Idealize.ShloMosaic.StableHlo

namespace Cert.KernelIdeal.EntryArrays

open Cert.KernelIdeal Cert.KernelIdeal.Gen

variable (m : (ℓ : Loc nD τ sig) → Buf (Elt Ideal) ℓ)

-- the host operations before the region are read back one by one: twenty-eight of them
set_option maxHeartbeats 2000000 in
/-- The left array when the region is entered is the decay matrix of the scalar argument. -/
theorem left_eq (c : Dev nD) :
    (V m c main_v18 : S1024x1024.Idx → EReal)
      = Cert.ReferenceIdeal.Decay.decay (F := Ideal) (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 2000000 in
/-- The right array when the region is entered is the array argument laid out as 1024 rows of 16384. -/
theorem right_eq (c : Dev nD) :
    (V m c main_v19 : S1024x16384.Idx → EReal)
      = shapeCast S1024x16384 (m ((c : Thread nD τ).loc main_arg0)) shapeCasts_S1024x16x1024_S1024x16384 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.EntryArrays

end
-- ==== Proof.RefResult.lean ====
/-
  The reference's result as the product.  Its run ends with the result array at the reshape to [1024, 16, 1024] of the
  host's `dot_general` of the decay matrix (of the scalar argument) with the reshape to [1024, 16384] of the array
  argument; that `dot_general` is the product `∑ k, A[r, k] · X[k, c]` entry by entry.
-/
import proofs.«121106_j71889162600690_2_alg».proof.Proof.Gen.ReferenceIdeal.Run
import proofs.«121106_j71889162600690_2_alg».proof.Proof.Decay
import proofs.«121106_j71889162600690_2_alg».proof.Proof.MatProd

noncomputable section

namespace Cert.ReferenceIdeal.RefResult

open Cert.ReferenceIdeal Cert.ReferenceIdeal.Gen Cert.ReferenceIdeal.Decay
open Idealize.ShloMosaic Idealize.ShloMosaic.TcCoe Idealize.SL.Sem

/-- The host's dimension record is the plain rows-by-columns one. -/
theorem dims_eq : dot_S1024x1024_S1024x16384_S1024x16384_1_0_0_1_n_n = DotDims.plain 1024 1024 16384 := rfl

/-- The reference's result from arguments `b` (the scalar) and `x` (the array): the product of the decay matrix of
    `b` with `x` laid out as 1024 rows of 16384, laid out again as [1024, 16, 1024]. -/
def result (b : (⟨S_, .f32⟩ : BufTy).Contents (Elt Ideal)) (x : (⟨S1024x16x1024, .f32⟩ : BufTy).Contents (Elt Ideal)) :
    (⟨S1024x16x1024, .f32⟩ : BufTy).Contents (Elt Ideal) :=
  shapeCast S1024x16x1024
    (Cert.MatProd.prod (decay (F := Ideal) b) (shapeCast S1024x16384 x shapeCasts_S1024x16x1024_S1024x16384))
    shapeCasts_S1024x16384_S1024x16x1024

/-- The host's `dot_general` of the decay matrix and the reshaped argument is their product. -/
theorem dot_eq (b : (⟨S_, .f32⟩ : BufTy).Contents (Elt Ideal)) (X : FVec Ideal S1024x16384 .f32) :
    Host.dotGeneral (F := Ideal) (φ₁ := .f32) (φ₂ := .f32) dot_S1024x1024_S1024x16384_S1024x16384_1_0_0_1_n_n none (decay (F := Ideal) b) X
      = Cert.MatProd.prod (decay (F := Ideal) b) X := by
  rw [dims_eq]
  exact Cert.MatProd.dotGeneral_eq_prod none (decay (F := Ideal) b) X

/-- The reference's run, read: the result array at `result` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      show shapeCast _ (Host.dotGeneral (F := Ideal) (φ₁ := .f32) (φ₂ := .f32) dot_S1024x1024_S1024x16384_S1024x16384_1_0_0_1_n_n none
          (decay (F := Ideal) (m ((c.tc : Thread nD τ).loc main_arg1)))
          (shapeCast _ (m ((c.tc : Thread nD τ).loc main_arg0)) shapeCasts_S1024x16x1024_S1024x16384)) shapeCasts_S1024x16384_S1024x16x1024 = _
      rw [dot_eq]
      rfl), (h c).2⟩)
    (Cert.ReferenceIdeal.Value.run (F := Ideal) m ρ)

end Cert.ReferenceIdeal.RefResult

end
-- ==== Proof.KernelRun.lean ====
/-
  The kernel's run, read at the extended reals.  After the region the result array holds the product of the decay matrix
  of the scalar argument with the array argument laid out as 1024 rows of 16384; the one host operation after the region
  lays that product out again as [1024, 16, 1024].  This is, term for term, what the reference computes from the same
  arguments, so the kernel's result is stated with the reference's own result function.
-/
import proofs.«121106_j71889162600690_2_alg».proof.Proof.ResultArray
import proofs.«121106_j71889162600690_2_alg».proof.Proof.EntryArrays
import proofs.«121106_j71889162600690_2_alg».proof.Proof.RefResult
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.KernelRun

open Cert.KernelIdeal Cert.KernelIdeal.Gen Cert.KernelIdeal.ResultArray Cert.KernelIdeal.EntryArrays

variable (m : (ℓ : Loc nD τ sig) → Buf (Elt Ideal) ℓ) (ρ : Dev nD → PrngReg)

/-- The host operation after the region reads the result array the region left, which is the product, and lays it out
    as [1024, 16, 1024]. -/
theorem tail_eq (c : Dev nD) :
    Pipeline.afterTail₀ cfgs (dats m) 0 (V0 m) [hostOps1] c main_v21
      = shapeCast S1024x16x1024 (product m c) shapeCasts_S1024x16384_S1024x16x1024 := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.tc.devRef main_v20)
      = product m c :=
    (Pipeline.withArrays_arr spec0 launch0.win.arr_inj c _ _ 2).trans (final m c)
  rw [e]
  rfl

/-- With the two input arrays written in terms of the arguments, that is the reference's result function of them. -/
theorem result_eq (c : Dev nD) :
    shapeCast S1024x16x1024 (product m c) shapeCasts_S1024x16384_S1024x16x1024
      = Cert.ReferenceIdeal.RefResult.result (m ((c : Thread nD τ).loc main_arg1)) (m ((c : Thread nD τ).loc main_arg0)) := by
  show shapeCast S1024x16x1024 (Cert.MatProd.prod (V m c main_v18) (V m c main_v19)) shapeCasts_S1024x16384_S1024x16x1024 = _
  rw [left_eq m c, right_eq m c]
  rfl

/-- The run, read: the result at the reference's result function of the arguments, the arguments unchanged. -/
theorem run : θ_run defs (onTc (τ := τ) (main (F := Ideal))) ⟨m, fun _ => 0, ρ⟩ fun r => ∀ c : Dev nD,
      r.2.mem ((c.tc : Thread nD τ).loc main_v21)
          = Cert.ReferenceIdeal.RefResult.result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 (Pipeline.mem_restRefs_of main_v21 (by decide) (by decide))).trans ((tail_eq m c).trans (result_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelRun

end
-- ==== Proof.lean ====
/-
  The kernel computes `y = A · X` on the matrix unit, tile by tile, and the reference computes it with one host
  `dot_general`; both then lay `y` out as [1024, 16, 1024].  Here `X` is the array argument laid out as 1024 rows of
  16384 and `A` is the lower-triangular decay matrix `A[r, k] = β ^ (r − k)` for `k ≤ r`, `0` above the diagonal,
  `β` the logistic function of the scalar argument; both programs build `A` by the same host operations with the same
  literals, so it enters as one function of the scalar and is never opened.

  At the extended reals the kernel's narrowing of both operands to a shorter float format is the identity, and a
  product accumulated into a zero block is the plain sum, so the tile a grid point writes holds, at `(p, q)`,
  `∑ k, A[256 i + p, k] · X[k, 2048 j + q]`: the reference's entry at the place the tile goes to.  The 32 tiles cover
  the result, hence the two results are equal entry by entry.  The two sides are the same sum of the same products, so the
  finiteness of the inputs is not used.

  The three frames are the generated ones (the reference's is its generated run with the result dropped); the
  idealization rewrote no operation of the kernel, so that conjunct is `True`.
-/
import proofs.«121106_j71889162600690_2_alg».proof.Defs
import proofs.«121106_j71889162600690_2_alg».proof.Proof.Gen.Kernel
import proofs.«121106_j71889162600690_2_alg».proof.Proof.Gen.Kernel.Skeleton
import proofs.«121106_j71889162600690_2_alg».proof.Proof.Gen.Kernel.Launch
import proofs.«121106_j71889162600690_2_alg».proof.Proof.Gen.Kernel.Points
import proofs.«121106_j71889162600690_2_alg».proof.Proof.Gen.Kernel.Frame
import proofs.«121106_j71889162600690_2_alg».proof.Proof.Gen.KernelIdeal
import proofs.«121106_j71889162600690_2_alg».proof.Proof.Gen.KernelIdeal.Skeleton
import proofs.«121106_j71889162600690_2_alg».proof.Proof.Gen.KernelIdeal.Launch
import proofs.«121106_j71889162600690_2_alg».proof.Proof.Gen.KernelIdeal.Points
import proofs.«121106_j71889162600690_2_alg».proof.Proof.Gen.KernelIdeal.Frame
import proofs.«121106_j71889162600690_2_alg».proof.Proof.Gen.ReferenceIdeal
import proofs.«121106_j71889162600690_2_alg».proof.Proof.Gen.Pre_finite_inputs
import proofs.«121106_j71889162600690_2_alg».proof.Proof.Gen.ReferenceIdeal.Run
import proofs.«121106_j71889162600690_2_alg».proof.Proof.KernelRun
import proofs.«121106_j71889162600690_2_alg».proof.Proof.RefResult
import Idealize.ShloMosaic.Adequacy
import Idealize.ShloMosaic.Init

noncomputable section

namespace Cert.Proof

open Idealize.ShloMosaic Idealize.SL.Sem

/-- At the extended reals both programs, from memories that agree on the two arguments, end with the result array at the
    same function of those arguments: the product of the decay matrix with the reshaped array argument, reshaped back. -/
theorem algebraic : Cert.algebraic_KernelIdeal_ReferenceIdeal := by
  intro m ρ m' ρ' _ hagree
  refine ⟨fun c => Cert.ReferenceIdeal.RefResult.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.KernelRun.run m ρ, ?_⟩
  refine (θ_run Cert.ReferenceIdeal.defs _ _).mono (fun _ h c => ⟨(h c).1.trans ?_, (h c).2⟩)
    (Cert.ReferenceIdeal.RefResult.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
